-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S2048x4096 : Shape := ⟨2, ![2048, 4096]⟩
abbrev S1x2048 : Shape := ⟨2, ![1, 2048]⟩
abbrev S256x2048 : Shape := ⟨2, ![256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S2048x4096, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S2048x4096_S2048x4096_0_0 : ∀ a, (![0, 0] : Fin 2 → Nat) a + S2048x4096.size a ≤ S2048x4096.size a
  h_S2048x4096 : 0 < S2048x4096.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  dot_S256x4096_S2048x4096_S256x2048_1_1_0_0_n_n_wf : DotDims.WF S256x4096 S2048x4096 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S4096x4096.size a
  hwx0_1 : ∀ i : grid0.Coords, EltTy.bits .f32 = 32 ∨ (Rect.block (s := S4096x4096) S2048x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x4096.size a
  hwx0_3 : ∀ i : grid0.Coords, EltTy.bits .f32 = 32 ∨ (Rect.block (s := S8192x4096) S256x2048.size (cc0_transform_3 i) (hinb0_3 i)).WholeWords (EltTy.packing .f32)

variable [Facts₀]

def dot_S256x4096_S2048x4096_S256x2048_1_1_0_0_n_n : DotDims S256x4096 S2048x4096 S256x2048 where
  lhsContracting := [1]
  rhsContracting := [1]
  lhsNonContracting := [0]
  rhsNonContracting := [0]
  lhsBatch := []
  rhsBatch := []
  wf := dot_S256x4096_S2048x4096_S256x2048_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Affine.lean ====
/-
  The function both programs compute, stated once over the argument arrays and over no program:
  the affine map  out (r, s) = Σ_k x (r, k) · w (s, k) + b s  of a [8192, 4096] array of rows x, a [4096, 4096]
  array w whose ROWS are the output's columns (the product is x · wᵀ), and a bias vector b of length 4096,
  on the extended reals. The sum over k is a finite sum in a commutative monoid, so neither its order nor any
  grouping of it into tiles matters, and no entry needs to be finite for what follows.
-/
import Idealize.ShloMosaic.PureOps.Ideal
import Idealize.ShloMosaic.Lib.ValueIdx

noncomputable section

namespace Cert.Affine

open Idealize.ShloMosaic Idealize.ShloMosaic.ValueIdx

/-- out (r, s) = Σ_k x (r, k) · w (s, k) + b s. -/
def affine (x : FVec Ideal ⟨2, ![8192, 4096]⟩ .f32) (w : FVec Ideal ⟨2, ![4096, 4096]⟩ .f32)
    (b : FVec Ideal ⟨1, ![4096]⟩ .f32) : FVec Ideal ⟨2, ![8192, 4096]⟩ .f32 :=
  fun i => (∑ k : Fin 4096, x (ix2 (i 0) k) * w (ix2 (i 1) k)) + b (ix1 (i 1))

/-- The map at the index with coordinates (r, s). -/
theorem affine_ix2 (x : FVec Ideal ⟨2, ![8192, 4096]⟩ .f32) (w : FVec Ideal ⟨2, ![4096, 4096]⟩ .f32)
    (b : FVec Ideal ⟨1, ![4096]⟩ .f32) (r : Fin 8192) (s : Fin 4096) :
    affine x w b (ix2 r s) = (∑ k : Fin 4096, x (ix2 r k) * w (ix2 s k)) + b (ix1 s) := rfl

end Cert.Affine

end
-- ==== Proof.ReferenceAffine.lean ====
/-
  The reference computes the affine map. Its four host operations are a matrix product contracting the LAST axis
  of both operands (x · wᵀ), the bias copied into a one-row matrix, that row copied down every row, and a sum.
  Read at an index (r, s): the product is Σ_k x (r, k) · w (s, k); the two copies read the bias at s; the sum adds them.
-/
import proofs.«147862_j51110110822461_2_alg».proof.Proof.Gen.ReferenceIdeal.Read
import proofs.«147862_j51110110822461_2_alg».proof.Proof.Affine

noncomputable section

namespace Cert.ReferenceIdeal.AffineValue

open Cert.ReferenceIdeal Cert.ReferenceIdeal.Gen Cert.ReferenceIdeal.Read Cert.Affine
open Idealize.ShloMosaic Idealize.ShloMosaic.ValueIdx

/-- The product's left operand index at (r, s) and k is (r, k). -/
theorem lidx_eq (i : S8192x4096.Idx) (k : Fin 4096) : lidx_main_v0 i k = ix2 (i 0) k :=
  funext fun a => Fin.ext (by match a with | ⟨0, _⟩ => rfl | ⟨1, _⟩ => rfl)

/-- Its right operand index is (s, k): the second operand is read along its rows. -/
theorem ridx_eq (i : S8192x4096.Idx) (k : Fin 4096) : ridx_main_v0 i k = ix2 (i 1) k :=
  funext fun a => Fin.ext (by match a with | ⟨0, _⟩ => rfl | ⟨1, _⟩ => rfl)

/-- The two copies of the bias read it at the column s. -/
theorem bidx_eq (i : S8192x4096.Idx) : idx_main_v1 (idx_main_v2 i) = ix1 (i 1) :=
  funext fun a => Fin.ext (by match a with | ⟨0, _⟩ => rfl)

/-- The reference's result, as a function of its three arguments, is the affine map. -/
theorem result_eq (x : (⟨S8192x4096, .f32⟩ : BufTy).Contents (Elt Ideal)) (w : (⟨S4096x4096, .f32⟩ : BufTy).Contents (Elt Ideal))
    (b : (⟨S4096, .f32⟩ : BufTy).Contents (Elt Ideal)) :
    val_main_v3 (F := Ideal) x w b = affine x w b := by
  funext i
  rw [val_main_v3_apply, val_main_v0_apply, val_main_v2_apply, val_main_v1_apply, bidx_eq, Ideal.addf_def]
  simp only [lidx_eq, ridx_eq]
  rfl

end Cert.ReferenceIdeal.AffineValue

end
-- ==== Proof.BlockProduct.lean ====
/-
  What the kernel body computes from the three blocks it is handed, at the coordinate (p, q) of its [256, 2048]
  output block: a block of 256 rows of x (all 4096 columns), a block of 2048 rows of w (all 4096 columns) and a
  one-row block of 2048 bias entries give
      Σ_k xblk (p, k) · wblk (q, k) + bblk (0, q).
  The matrix unit accumulates into a zero block, so the product is the bare sum; the bias row is re-laid onto its
  own shape (the identity) and copied down the 256 rows.
-/
import proofs.«147862_j51110110822461_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen
open Idealize.ShloMosaic Idealize.ShloMosaic.ValueIdx

/-- The matrix unit's operand indices at an output index j and a contraction index: the left operand's row is j's row … -/
theorem lhs_row (j : S256x2048.Idx) (κ : dot_S256x4096_S2048x4096_S256x2048_1_1_0_0_n_n.contr.Idx) :
    (dot_S256x4096_S2048x4096_S256x2048_1_1_0_0_n_n.lhsIdx j κ 0).val = (j 0).val := by
  unfold DotDims.lhsIdx
  rw [dif_neg (show ¬(0 : Fin S256x4096.rank) ∈ dot_S256x4096_S2048x4096_S256x2048_1_1_0_0_n_n.lhsBatch by decide),
    dif_pos (show (0 : Fin S256x4096.rank) ∈ dot_S256x4096_S2048x4096_S256x2048_1_1_0_0_n_n.lhsNonContracting by decide)]
  rfl
/-- … and its column the contraction coordinate; -/
theorem lhs_col (j : S256x2048.Idx) (κ : dot_S256x4096_S2048x4096_S256x2048_1_1_0_0_n_n.contr.Idx) :
    (dot_S256x4096_S2048x4096_S256x2048_1_1_0_0_n_n.lhsIdx j κ 1).val = (κ ⟨0, by decide⟩).val :=
  dot_S256x4096_S2048x4096_S256x2048_1_1_0_0_n_n.lhsIdx_val_of_single rfl j κ
/-- the right operand's ROW is j's column (it is read along its rows: the product is with the transpose) … -/
theorem rhs_row (j : S256x2048.Idx) (κ : dot_S256x4096_S2048x4096_S256x2048_1_1_0_0_n_n.contr.Idx) :
    (dot_S256x4096_S2048x4096_S256x2048_1_1_0_0_n_n.rhsIdx j κ 0).val = (j 1).val := by
  unfold DotDims.rhsIdx
  rw [dif_neg (show ¬(0 : Fin S2048x4096.rank) ∈ dot_S256x4096_S2048x4096_S256x2048_1_1_0_0_n_n.rhsBatch by decide),
    dif_pos (show (0 : Fin S2048x4096.rank) ∈ dot_S256x4096_S2048x4096_S256x2048_1_1_0_0_n_n.rhsNonContracting by decide)]
  rfl
/-- … and its column the contraction coordinate. -/
theorem rhs_col (j : S256x2048.Idx) (κ : dot_S256x4096_S2048x4096_S256x2048_1_1_0_0_n_n.contr.Idx) :
    (dot_S256x4096_S2048x4096_S256x2048_1_1_0_0_n_n.rhsIdx j κ 1).val = (κ ⟨0, by decide⟩).val :=
  dot_S256x4096_S2048x4096_S256x2048_1_1_0_0_n_n.rhsIdx_val_of_single rfl j κ

/-- The block product into a zero accumulator, at (p, q): Σ_k xblk (p, k) · wblk (q, k). The contraction index has one
    axis of extent 4096, so the sum over it is the sum over k. -/
theorem product_apply (x0 : FVec Ideal S256x4096 .f32) (x1 : FVec Ideal S2048x4096 .f32) (p : Fin 256) (q : Fin 2048) :
    matmul (F := Ideal) dot_S256x4096_S2048x4096_S256x2048_1_1_0_0_n_n (some .fp32) x0 x1 (constant S256x2048 .f32 0x00000000#32) (ix2 p q)
      = ∑ k : Fin 4096, x0 (ix2 p k) * x1 (ix2 q k) := by
  simp only [matmul]
  rw [Ideal.matmul_constant_zero_apply,
    ← Equiv.sum_comp (contrEquiv1 dot_S256x4096_S2048x4096_S256x2048_1_1_0_0_n_n 4096 rfl rfl).symm]
  refine Finset.sum_congr rfl fun k _ => ?_
  have hk := contrEquiv1_symm_val dot_S256x4096_S2048x4096_S256x2048_1_1_0_0_n_n 4096 rfl rfl k
  have el : dot_S256x4096_S2048x4096_S256x2048_1_1_0_0_n_n.lhsIdx (ix2 p q)
      ((contrEquiv1 dot_S256x4096_S2048x4096_S256x2048_1_1_0_0_n_n 4096 rfl rfl).symm k) = ix2 p k :=
    funext fun a => Fin.ext (by
      match a with
      | ⟨0, _⟩ => exact lhs_row _ _
      | ⟨1, _⟩ => exact (lhs_col _ _).trans hk)
  have er : dot_S256x4096_S2048x4096_S256x2048_1_1_0_0_n_n.rhsIdx (ix2 p q)
      ((contrEquiv1 dot_S256x4096_S2048x4096_S256x2048_1_1_0_0_n_n 4096 rfl rfl).symm k) = ix2 q k :=
    funext fun a => Fin.ext (by
      match a with
      | ⟨0, _⟩ => exact rhs_row _ _
      | ⟨1, _⟩ => exact (rhs_col _ _).trans hk)
  rw [el, er]

/-- The bias row re-laid onto its own shape and copied down the rows, at (p, q): the row's entry q. -/
theorem bias_rows_apply (x2 : FVec Ideal S1x2048 .f32) (p : Fin 256) (q : Fin 2048) :
    broadcastTo S256x2048 (shapeCast S1x2048 x2 shapeCasts_S1x2048_S1x2048) broadcasts_S1x2048_S256x2048 (ix2 p q)
      = x2 (ix2 0 q) := by
  rw [shapeCast_self]
  exact broadcastTo_apply x2 broadcasts_S1x2048_S256x2048 (ix2 p q) (ix2 0 q) (fun a => match a with
    | ⟨0, _⟩ => by show (0 : Nat) = if (1 : Nat) = 1 then 0 else _; rw [if_pos rfl]
    | ⟨1, _⟩ => by show q.val = if (2048 : Nat) = 1 then 0 else q.val; rw [if_neg (by decide)])

/-- The body's whole arithmetic at (p, q). -/
theorem payload_apply (x0 : Vec Ideal S256x4096 .f32) (x1 : Vec Ideal S2048x4096 .f32) (x2 : Vec Ideal S1x2048 .f32)
    (p : Fin 256) (q : Fin 2048) :
    k0_pay1 (F := Ideal) x0 x1 x2 (ix2 p q) = (∑ k : Fin 4096, x0 (ix2 p k) * x1 (ix2 q k)) + x2 (ix2 0 q) := by
  unfold k0_pay1
  rw [addf_apply, product_apply, bias_rows_apply]

end Cert.KernelIdeal.BlockProduct

end
-- ==== Proof.BlocksToArray.lean ====
/-
  From blocks to the whole array. The grid has 2 × 32 points (j, i). At a point the body is handed rows
  256·i … 256·i + 255 of x, rows 2048·j … 2048·j + 2047 of w, and entries 2048·j … 2048·j + 2047 of the bias (which the
  host has re-laid as a one-row matrix before the launch), and what it writes back is the block of the output with
  those rows and those columns. So what point (j, i) writes back is exactly that block of the affine map of the whole
  argument arrays; the 64 blocks tile the [8192, 4096] output (row r, column s lies in the block of the point with
  i = r / 256 and j = s / 2048); hence after the run the output array IS the affine map.
-/
import proofs.«147862_j51110110822461_2_alg».proof.Proof.Gen.KernelIdeal.Value
import proofs.«147862_j51110110822461_2_alg».proof.Proof.Affine
import proofs.«147862_j51110110822461_2_alg».proof.Proof.BlockProduct
import Idealize.ShloMosaic.Lib.Pipeline.Value
import Idealize.ShloMosaic.Lib.StableHlo.Run
import Idealize.ShloMosaic.Lib.ValueIdx

noncomputable section

namespace Cert.KernelIdeal.AffineValue

open Cert.KernelIdeal Cert.KernelIdeal.Gen Cert.KernelIdeal.Value Cert.KernelIdeal.BlockProduct Cert.Affine
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## One block, over any arrays -/

/-- If the three blocks handed to the body are rows r-block of X, rows s-block of W and the bias entries of the s-block —
    stated at the one row p and the one column q that matter — then the body's result at (p, q) is the affine map at (r, s). -/
theorem block_entry (X : FVec Ideal ⟨2, ![8192, 4096]⟩ .f32) (W : FVec Ideal ⟨2, ![4096, 4096]⟩ .f32) (b : FVec Ideal ⟨1, ![4096]⟩ .f32)
    (x0 : Vec Ideal S256x4096 .f32) (x1 : Vec Ideal S2048x4096 .f32) (x2 : Vec Ideal S1x2048 .f32)
    (p : Fin 256) (q : Fin 2048) (r : Fin 8192) (s : Fin 4096)
    (h0 : ∀ k : Fin 4096, x0 (ix2 p k) = X (ix2 r k)) (h1 : ∀ k : Fin 4096, x1 (ix2 q k) = W (ix2 s k))
    (h2 : x2 (ix2 0 q) = b (ix1 s)) :
    k0_pay1 (F := Ideal) x0 x1 x2 (ix2 p q) = affine X W b (ix2 r s) := by
  rw [payload_apply, affine_ix2, h2]
  exact congrArg (· + b (ix1 s)) (Finset.sum_congr rfl fun k _ => by rw [h0 k, h1 k])

/-! ## The index maps over the grid -/

/-- The printed index maps, decided over the 64 points: the x block moves with the output's row block and spans all
    columns; the w block and the bias block move with the output's column block; the output's block indices stay in range. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 31 ∧ win0_3.index t (1 : Fin 2) ≤ 1 :=
  (by decide +kernel : ∀ t : Fin grid0.N, _)

/-- Every block of the output is some point's. -/
theorem idx_onto : ∀ (q0 : Fin 32) (q1 : Fin 2), ∃ t : Fin cfg0.N, win0_3.index t = ![q0.val, q1.val] :=
  (by decide +kernel : ∀ (q0 : Fin 32) (q1 : Fin 2), ∃ t : Fin grid0.N, win0_3.index t = ![q0.val, q1.val])

/-! ## The arrays as the region finds them, and the blocks read off them -/

/-- The bias as the region finds it: the vector re-laid as a one-row matrix by the host before the launch. -/
theorem bias_matrix (c : Dev nD) :
    (V m c main_v0 : S1x4096.Idx → EReal) = shapeCast S1x4096 (m ((c : Thread nD τ).loc main_arg2)) shapeCasts_S4096_S1x4096 := by
  dsimp only [Gen.V, Gen.hostOps0]
  after_results
  rfl

/-- Its entry (0, s) is the vector's entry s. -/
theorem bias_matrix_apply (c : Dev nD) (s : Fin 4096) :
    (V m c main_v0 : S1x4096.Idx → EReal) (ix2 0 s) = (m ((c : Thread nD τ).loc main_arg2) : S4096.Idx → EReal) (ix1 s) := by
  rw [bias_matrix]
  refine shapeCast_apply _ shapeCasts_S4096_S1x4096 (ix2 0 s) (ix1 s) ?_
  rw [Shape.rowMajor_val_one, Shape.rowMajor_val_two]
  show s.val = 0 * 4096 + s.val
  omega

/-- Row p of the x block at point t is row (row block) · 256 + p of x. -/
theorem x_block_apply (c : Dev nD) (t : Fin cfg0.N) (p : Fin 256) (k : Fin 4096) (r : Fin 8192)
    (hr : r.val = win0_3.index t (0 : Fin 2) * 256 + p.val) :
    (iblk m c 0 t : Vec Ideal S256x4096 .f32) (ix2 p k) = (m ((c : Thread nD τ).loc main_arg0) : S8192x4096.Idx → EReal) (ix2 r k) := by
  obtain ⟨e0, e1, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 256 + 1 * p.val = r.val; omega
  | ⟨1, _⟩ => show win0_0.index t (1 : Fin 2) * 4096 + 1 * k.val = k.val; omega

/-- Row q of the w block at point t is row (column block) · 2048 + q of w. -/
theorem w_block_apply (c : Dev nD) (t : Fin cfg0.N) (q : Fin 2048) (k : Fin 4096) (s : Fin 4096)
    (hs : s.val = win0_3.index t (1 : Fin 2) * 2048 + q.val) :
    (iblk m c 1 t : Vec Ideal S2048x4096 .f32) (ix2 q k) = (m ((c : Thread nD τ).loc main_arg1) : S4096x4096.Idx → EReal) (ix2 s k) := by
  obtain ⟨-, -, e2, e3, -⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 2048 + 1 * q.val = s.val; omega
  | ⟨1, _⟩ => show win0_1.index t (1 : Fin 2) * 4096 + 1 * k.val = k.val; omega

/-- Entry q of the bias block at point t is entry (column block) · 2048 + q of the bias. -/
theorem bias_block_apply (c : Dev nD) (t : Fin cfg0.N) (q : Fin 2048) (s : Fin 4096)
    (hs : s.val = win0_3.index t (1 : Fin 2) * 2048 + q.val) :
    (iblk m c 2 t : Vec Ideal S1x2048 .f32) (ix2 0 q) = (m ((c : Thread nD τ).loc main_arg2) : S4096.Idx → EReal) (ix1 s) := by
  obtain ⟨-, -, -, -, e4, e5, -⟩ := idx_facts t
  rw [← bias_matrix_apply m c s]
  unfold iblk
  rw [View.read_apply]
  show V m c main_v0 _ = V m c main_v0 _
  congr 1
  funext a
  apply Fin.ext
  match a with
  | ⟨0, _⟩ => show win0_2.index t (0 : Fin 2) * 1 + 1 * 0 = 0; omega
  | ⟨1, _⟩ => show win0_2.index t (1 : Fin 2) * 2048 + 1 * q.val = s.val; omega

/-! ## What a point writes back, the cover, and the run -/

/-- WHAT POINT t WRITES BACK is block t of the affine map of the argument arrays. -/
theorem flushed_eq (c : Dev nD) (t : Fin cfg0.N) :
    (dats m 0 c).flushed 3 t = ((cfg0.win 3).blk t).view.read (Elt Ideal)
      (affine (m ((c : Thread nD τ).loc main_arg0)) (m ((c : Thread nD τ).loc main_arg1)) (m ((c : Thread nD τ).loc main_arg2))) := by
  rw [flushed3]
  unfold out0_3
  rw [View.canon_unit_zero zero_offsets]
  simp only [View.ld_unit_zero (S := S256x4096) zero_offsets, View.ld_unit_zero (S := S2048x4096) zero_offsets,
    View.ld_unit_zero (S := S1x2048) zero_offsets]
  obtain ⟨-, -, -, -, -, -, b0, b1⟩ := idx_facts t
  funext j
  obtain ⟨p, q, rfl⟩ : ∃ (p : Fin 256) (q : Fin 2048), j = ix2 p q := ⟨j 0, j 1, eq_ix2 j⟩
  have hp : p.val < 256 := p.isLt
  have hq : q.val < 2048 := q.isLt
  have hemb : ((cfg0.win 3).blk t).view.emb (ix2 p q)
      = ix2 (⟨win0_3.index t (0 : Fin 2) * 256 + p.val, by omega⟩ : Fin 8192) (⟨win0_3.index t (1 : Fin 2) * 2048 + q.val, by omega⟩ : Fin 4096) := by
    funext a
    apply Fin.ext
    match a with
    | ⟨0, _⟩ => show win0_3.index t (0 : Fin 2) * 256 + 1 * p.val = win0_3.index t (0 : Fin 2) * 256 + p.val; omega
    | ⟨1, _⟩ => show win0_3.index t (1 : Fin 2) * 2048 + 1 * q.val = win0_3.index t (1 : Fin 2) * 2048 + q.val; omega
  show k0_pay1 (F := Ideal) (iblk m c 0 t) (iblk m c 1 t) (iblk m c 2 t) (ix2 p q)
    = affine (m ((c : Thread nD τ).loc main_arg0)) (m ((c : Thread nD τ).loc main_arg1)) (m ((c : Thread nD τ).loc main_arg2))
        (((cfg0.win 3).blk t).view.emb (ix2 p q))
  rw [hemb]
  exact block_entry _ _ _ (iblk m c 0 t) (iblk m c 1 t) (iblk m c 2 t) p q _ _
    (fun k => x_block_apply m c t p k _ rfl) (fun k => w_block_apply m c t q k _ rfl) (bias_block_apply m c t q _ rfl)

/-- An index of the output is in point t's block iff each coordinate is in the block's range on its axis. -/
theorem mem_blk (t : Fin cfg0.N) (i : S8192x4096.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v1).slice (win0_3.rect t)).set ↔ _
  rw [View.set_slice_whole, Rect.mem_set_unit]
  exact Iff.rfl

/-- The 64 blocks cover the output: (r, s) lies in the block of the point with row block r / 256 and column block s / 2048. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 256, by omega⟩ ⟨(i 1).val / 2048, by omega⟩
  have q0 : win0_3.index t (0 : Fin 2) = (i 0).val / 256 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-- THE OUTPUT ARRAY after the run is the affine map of the argument arrays. -/
theorem final (c : Dev nD) : (dats m 0 c).arrAt 3 cfg0.N
    = affine (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: the result array at the affine map of the arguments, the arguments unchanged. -/
theorem run : θ_run defs (onTc (τ := τ) (main (F := Ideal))) ⟨m, fun _ => 0, ρ⟩ fun r => ∀ c : Dev nD,
      r.2.mem ((c : Thread nD τ).loc main_v1)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.AffineValue

end
-- ==== Proof.lean ====
/-
  A linear layer: out (r, s) = Σ_k x (r, k) · w (s, k) + b s, for x of 8192 rows by 4096, w of 4096 rows by 4096
  (its rows are the output's columns: the product is x · wᵀ) and a bias b of length 4096.

  The kernel tiles the output into 2 × 32 blocks of 256 rows by 2048 columns; each grid point multiplies a block of 256
  rows of x with a block of 2048 rows of w on the matrix unit (into a zero accumulator), adds the matching 2048 bias
  entries copied down the rows, and writes its block back. The reference contracts the whole arrays in one product and
  adds the bias copied down every row.

  On the extended reals both are the same function of the arguments, index by index (Proof/Affine.lean states it):
  the reference's four operations read at an index give it directly (Proof/ReferenceAffine.lean); the kernel body's
  arithmetic at a coordinate of its block is the same sum over the block's rows (Proof/BlockProduct.lean), each block of
  an argument is the corresponding rows of that argument, and the 64 output blocks tile the output
  (Proof/BlocksToArray.lean). Only commutative-monoid facts about the finite sum are used — no distributivity, no
  cancellation — so the precondition that the inputs are finite is never opened.

  The idealization rewrote nothing, so that claim is trivially true; the three programs' runs are the generated ones.
-/
import proofs.«147862_j51110110822461_2_alg».proof.Defs
import proofs.«147862_j51110110822461_2_alg».proof.Proof.Gen.Kernel
import proofs.«147862_j51110110822461_2_alg».proof.Proof.Gen.Kernel.Frame
import proofs.«147862_j51110110822461_2_alg».proof.Proof.Gen.KernelIdeal
import proofs.«147862_j51110110822461_2_alg».proof.Proof.Gen.KernelIdeal.Frame
import proofs.«147862_j51110110822461_2_alg».proof.Proof.Gen.KernelIdeal.Value
import proofs.«147862_j51110110822461_2_alg».proof.Proof.Gen.ReferenceIdeal
import proofs.«147862_j51110110822461_2_alg».proof.Proof.Gen.ReferenceIdeal.Run
import proofs.«147862_j51110110822461_2_alg».proof.Proof.Gen.ReferenceIdeal.Read
import proofs.«147862_j51110110822461_2_alg».proof.Proof.Gen.Pre_finite_inputs
import proofs.«147862_j51110110822461_2_alg».proof.Proof.Affine
import proofs.«147862_j51110110822461_2_alg».proof.Proof.ReferenceAffine
import proofs.«147862_j51110110822461_2_alg».proof.Proof.BlocksToArray

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals: nothing to show. -/
theorem preserves : Cert.preserves_Kernel_KernelIdeal := trivial

/-- From memories that agree on x, w and b, the kernel's output array and the reference's result are both the affine
    map of those arguments. -/
theorem algebraic : Cert.algebraic_KernelIdeal_ReferenceIdeal := by
  intro m ρ m' ρ' _ hagree
  refine ⟨fun c => Cert.Affine.affine
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.AffineValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.AffineValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
